-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S5000x128 : Shape := ⟨2, ![5000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S4000x128 : Shape := ⟨2, ![4000, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩
abbrev S4000x64 : Shape := ⟨2, ![4000, 64]⟩

abbrev nBuf : Space → Nat
  | .hbm => 114
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000, .f32⟩
  | .hbm, ⟨91, _⟩ => ⟨S1600000, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x64, .f32⟩
  | .hbm, ⟨101, _⟩ => ⟨S1600000x1, .f32⟩
  | .hbm, ⟨102, _⟩ => ⟨S1600000x64, .f32⟩
  | .hbm, ⟨103, _⟩ => ⟨S1600000x64, .f32⟩
  | .hbm, ⟨104, _⟩ => ⟨S_, .f32⟩
  | .hbm, ⟨105, _⟩ => ⟨S100000x64, .f32⟩
  | .hbm, ⟨106, _⟩ => ⟨S1600000x1, .i32⟩
  | .hbm, ⟨107, _⟩ => ⟨S100000x64, .f32⟩
  | .hbm, ⟨108, _⟩ => ⟨S100000, .f32⟩
  | .hbm, ⟨109, _⟩ => ⟨S100000x1, .f32⟩
  | .hbm, ⟨110, _⟩ => ⟨S100000x64, .f32⟩
  | .hbm, ⟨111, _⟩ => ⟨S100000x64, .f32⟩
  | .hbm, ⟨112, _⟩ => ⟨S1x64, .f32⟩
  | .hbm, ⟨113, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S1x64, .f32⟩
  | .local _ .vmem, ⟨22, _⟩ => ⟨S4000x64, .f32⟩
  | .local _ .vmem, ⟨23, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_v54 : Ref sig .tc := ⟨.hbm, 74, rfl⟩
abbrev main_v55 : Ref sig .tc := ⟨.hbm, 75, rfl⟩
abbrev main_c_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_c_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_15 : Ref sig .tc := ⟨.hbm, 92, rfl⟩
abbrev main_v69 : Ref sig .tc := ⟨.hbm, 93, rfl⟩
abbrev main_v70 : Ref sig .tc := ⟨.hbm, 94, rfl⟩
abbrev main_c_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_17 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x64.size a ≤ S100000x64.size a
  hwx3_3 : ∀ i : grid3.Coords, EltTy.bits .f32 = 32 ∨ (Rect.block (s := S100000x64) S4000x64.size (cc3_transform_3 i) (hinb3_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v81) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v86) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S4000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x1, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .hbm, ⟨113, _⟩ => ⟨S100000, .f32⟩
  | .hbm, ⟨114, _⟩ => ⟨S100000x1, .f32⟩
  | .hbm, ⟨115, _⟩ => ⟨S100000x64, .f32⟩
  | .hbm, ⟨116, _⟩ => ⟨S100000x64, .f32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The kernel program's run with its result named.

  @main is seven segments: three stretches of host operations and four regions. The contents of every buffer at
  each segment boundary are a fold from the launch memory (a stretch applies its operations; a region leaves its
  arrays at what its write-backs leave and every other buffer as it was). Every weakly fair execution terminates
  with every buffer at the last boundary's contents; here the RESULT buffer is kept in the post beside the
  arguments, at the last boundary's contents, so that the value proof can read it back through the fold.
-/
import proofs.«107032_j4621384810820_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v87) = W7 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v87 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.RegionSpec.lean ====
/-
  The four arrays the kernel's regions write, each as one function of the arrays the region reads.

  A graph-convolution layer here is: project the node features, h = x · W; aggregate the projected rows over the
  edges with the symmetric normalisation and scale each node's own row; then add the aggregate, the own row and
  the bias row (and, in the first layer, keep the positive part). The projection and the final combination are
  what the kernel computes block of rows by block of rows; as whole arrays they are:

  * the projection: entry (r, e) is the sum over k of x[r, k] · W[k, e] (regions 0 and 2);
  * the combination: entry (r, e) is (a[r, e] + s[r, e]) + bias[0, e], for the first layer its maximum with 0
    (regions 1 and 3).

  The index functions below name, for an entry of the result, the entries of the operands it is built from.
-/
import proofs.«107032_j4621384810820_1_alg».proof.KernelIdeal
import Idealize.ShloMosaic.Lib.ValueIdx
import Idealize.ShloMosaic.PureOps.Ideal

noncomputable section

namespace Cert.KernelIdeal.Spec

open Cert.KernelIdeal Idealize.ShloMosaic

variable {F : FTy → Type} [FloatOps F]

/-! ## The projections -/

/-- Entry k of the row of x that entry i of the first projection is built from. -/
abbrev lrow1 (i : S100000x128.Idx) (k : Fin 128) : S100000x128.Idx := fun a => match a with
  | ⟨0, _⟩ => ⟨(i 0).val, (i 0).isLt⟩
  | ⟨1, _⟩ => ⟨k.val, k.isLt⟩
/-- Entry k of the column of W1 that entry i of the first projection is built from. -/
abbrev rcol1 (i : S100000x128.Idx) (k : Fin 128) : S128x128.Idx := fun a => match a with
  | ⟨0, _⟩ => ⟨k.val, k.isLt⟩
  | ⟨1, _⟩ => ⟨(i 1).val, (i 1).isLt⟩
/-- The first projection x · W1, entry by entry. -/
def proj1 (x : (⟨S100000x128, .f32⟩ : BufTy).Contents (Elt Ideal)) (w : (⟨S128x128, .f32⟩ : BufTy).Contents (Elt Ideal)) :
    (⟨S100000x128, .f32⟩ : BufTy).Contents (Elt Ideal) :=
  fun i => ∑ k : Fin 128, x (lrow1 i k) * w (rcol1 i k)

/-- Entry k of the row of the hidden features that entry i of the second projection is built from. -/
abbrev lrow2 (i : S100000x64.Idx) (k : Fin 128) : S100000x128.Idx := fun a => match a with
  | ⟨0, _⟩ => ⟨(i 0).val, (i 0).isLt⟩
  | ⟨1, _⟩ => ⟨k.val, k.isLt⟩
/-- Entry k of the column of W2 that entry i of the second projection is built from. -/
abbrev rcol2 (i : S100000x64.Idx) (k : Fin 128) : S128x64.Idx := fun a => match a with
  | ⟨0, _⟩ => ⟨k.val, k.isLt⟩
  | ⟨1, _⟩ => ⟨(i 1).val, (i 1).isLt⟩
/-- The second projection h · W2, entry by entry. -/
def proj2 (x : (⟨S100000x128, .f32⟩ : BufTy).Contents (Elt Ideal)) (w : (⟨S128x64, .f32⟩ : BufTy).Contents (Elt Ideal)) :
    (⟨S100000x64, .f32⟩ : BufTy).Contents (Elt Ideal) :=
  fun i => ∑ k : Fin 128, x (lrow2 i k) * w (rcol2 i k)

/-! ## The combinations -/

/-- The entry of the [1, 128] bias row that entry i of the first layer's result takes. -/
abbrev biasAt1 (i : S100000x128.Idx) : S1x128.Idx := fun a => match a with
  | ⟨0, _⟩ => ⟨0, Nat.one_pos⟩
  | ⟨1, _⟩ => ⟨(i 1).val, (i 1).isLt⟩
/-- The first layer's result: the positive part of (aggregate + own row) + bias, entry by entry. -/
def combine1 (a s : (⟨S100000x128, .f32⟩ : BufTy).Contents (Elt F)) (b : (⟨S1x128, .f32⟩ : BufTy).Contents (Elt F)) :
    (⟨S100000x128, .f32⟩ : BufTy).Contents (Elt F) :=
  fun i => FloatOps.maximumf (FloatOps.addf (FloatOps.addf (a i) (s i)) (b (biasAt1 i))) (Scalar.ofBits .f32 0x00000000#32)

/-- The entry of the [1, 64] bias row that entry i of the second layer's result takes. -/
abbrev biasAt2 (i : S100000x64.Idx) : S1x64.Idx := fun a => match a with
  | ⟨0, _⟩ => ⟨0, Nat.one_pos⟩
  | ⟨1, _⟩ => ⟨(i 1).val, (i 1).isLt⟩
/-- The second layer's result: (aggregate + own row) + bias, entry by entry. -/
def combine2 (a s : (⟨S100000x64, .f32⟩ : BufTy).Contents (Elt F)) (b : (⟨S1x64, .f32⟩ : BufTy).Contents (Elt F)) :
    (⟨S100000x64, .f32⟩ : BufTy).Contents (Elt F) :=
  fun i => FloatOps.addf (FloatOps.addf (a i) (s i)) (b (biasAt2 i))

end Cert.KernelIdeal.Spec

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.Region0.lean ====
/-
  Region 0: the first projection, block of 5000 rows by block of 5000 rows, is x · W1 as a whole array.

  Point t of the 20 multiplies rows 5000·t … 5000·t + 4999 of x by the whole of W1 and writes the product to the same
  rows of the output. On the extended reals a change of float format is the identity and a product accumulated into
  the zero matrix is the plain sum over the contracted axis, so entry (p, q) of point t's block is
  ∑ k, x[5000·t + p, k] · W1[k, q]: the restriction of x · W1 to the block's rows. The 20 blocks tile the 100000 rows
  (row r lies in block r / 5000), so the array ends holding x · W1.
-/
import proofs.«107032_j4621384810820_1_alg».proof.Proof.RegionSpec
import proofs.«107032_j4621384810820_1_alg».proof.Proof.Gen.KernelIdeal.Frame
import proofs.«107032_j4621384810820_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.KernelIdeal.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body reads and writes its whole blocks: the offsets of its rectangles are zero on both axes. -/
theorem zeroOffsets0 : (![0, 0] : Fin 2 → Nat) = fun _ => 0 := funext fun a => by fin_cases a <;> rfl

/-- The block indices at point t, decided over the 20 points: the blocks of x and of the output are block t along
    the rows and block 0 along the columns; the one block of W1 has index 0 on both axes. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, q) of the body's product of a [5000, 128] block and a [128, 128] block: the narrowing of the two
    operands is the identity on the extended reals, and the product into the zero accumulator is the plain sum over
    the 128 contracted coordinates. -/
theorem product_entry0 (x0 : Vec Ideal S5000x128 .f32) (x1 : Vec Ideal S128x128 .f32) (p : Fin 5000) (q : Fin 128) :
    k0_pay1 x0 x1 (ValueIdx.ix2 p q) = ∑ k : Fin 128, x0 (ValueIdx.ix2 p k) * x1 (ValueIdx.ix2 k q) := by
  unfold k0_pay1
  exact ValueIdx.matmul_plain_zero_apply _ rfl none _ _ p q

/-- Entry y of the product of two blocks is entry i of the whole projection x · W, when the left block is rows
    T·5000 … T·5000 + 4999 of x, the right block is all of W, and i is y moved down by T·5000 rows. -/
theorem block_entry0 (x0 : Vec Ideal S5000x128 .f32) (x1 : Vec Ideal S128x128 .f32)
    (X : (⟨S100000x128, .f32⟩ : BufTy).Contents (Elt Ideal)) (W : (⟨S128x128, .f32⟩ : BufTy).Contents (Elt Ideal))
    (T : Nat) (y : S5000x128.Idx) (i : S100000x128.Idx)
    (hrow : (i 0).val = T * 5000 + (y 0).val) (hcol : (i 1).val = (y 1).val)
    (hx0 : ∀ (p : Fin 5000) (k : Fin 128) (z : S100000x128.Idx), (z 0).val = T * 5000 + p.val → (z 1).val = k.val →
      x0 (ValueIdx.ix2 p k) = X z)
    (hx1 : ∀ (k : Fin 128) (q : Fin 128) (z : S128x128.Idx), (z 0).val = k.val → (z 1).val = q.val →
      x1 (ValueIdx.ix2 k q) = W z) :
    k0_pay1 x0 x1 y = proj1 X W i := by
  obtain ⟨p, q, rfl⟩ : ∃ (p : Fin 5000) (q : Fin 128), y = ValueIdx.ix2 p q := ⟨y 0, y 1, ValueIdx.eq_ix2 y⟩
  rw [product_entry0]
  unfold proj1
  refine Finset.sum_congr rfl fun k _ => ?_
  rw [hx0 p k (lrow1 i k) hrow rfl, hx1 k q (rcol1 i k) rfl hcol]

/-- What point t writes back is block t of x · W1: an element of a block sits in its array, on each axis, at the
    block's index times the block's extent plus its coordinate inside the block. -/
theorem writeback0 (c : Dev nD) (t : Fin cfg0.N) :
    (dat0 (F := Ideal) V c).flushed 2 t
      = ((cfg0.win 2).blk t).view.read (Elt Ideal) (proj1 (V c main_arg0) (V c main_arg2)) := by
  show (cfg0.win 2).cut (grid0.coords t) ((dat0 V c).after 2 t) = _
  rw [after0_2]
  unfold out0_2
  rw [View.canon_unit_zero zeroOffsets0]
  simp only [View.ld_unit_zero (S := S5000x128) zeroOffsets0, View.ld_unit_zero (S := S128x128) zeroOffsets0]
  obtain ⟨e00, e01, e10, e11, e20, e21⟩ := blockIndex0 t
  funext j
  rw [View.read_apply]
  refine block_entry0 (iblk0 V c 0 t) (iblk0 V c 1 t) (V c main_arg0) (V c main_arg2) t.val
    ((cfg0.win 2).xinj (grid0.coords t) j) (((cfg0.win 2).blk t).view.emb j) ?_ ?_ ?_ ?_
  · show win0_2.index t (0 : Fin 2) * 5000 + 1 * (j 0).val = t.val * 5000 + (j 0).val
    rw [e20]; omega
  · show win0_2.index t (1 : Fin 2) * 128 + 1 * (j 1).val = (j 1).val
    rw [e21]; omega
  · intro p k z h0 h1
    unfold iblk0
    rw [View.read_apply]
    show V c main_arg0 _ = V c main_arg0 z
    congr 1
    funext a
    apply Fin.ext
    match a with
    | ⟨0, _⟩ => show win0_0.index t (0 : Fin 2) * 5000 + 1 * p.val = (z 0).val; rw [e00, h0]; omega
    | ⟨1, _⟩ => show win0_0.index t (1 : Fin 2) * 128 + 1 * k.val = (z 1).val; rw [e01, h1]; omega
  · intro k q z h0 h1
    unfold iblk0
    rw [View.read_apply]
    show V c main_arg2 _ = V c main_arg2 z
    congr 1
    funext a
    apply Fin.ext
    match a with
    | ⟨0, _⟩ => show win0_1.index t (0 : Fin 2) * 128 + 1 * k.val = (z 0).val; rw [e10, h0]; omega
    | ⟨1, _⟩ => show win0_1.index t (1 : Fin 2) * 128 + 1 * q.val = (z 1).val; rw [e11, h1]; omega

/-- An entry of the array is in point t's block iff, on each axis, its coordinate is within the block's extent
    from the block's first coordinate. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v4).slice (win0_2.rect t)).set ↔ _
  rw [View.set_slice_whole, Rect.mem_set_unit]
  exact Iff.rfl

/-- After its 20 grid points region 0's output array holds the projection of the two arrays it reads: every point
    writes its block of x · W1, and row r of the array lies in the block of point r / 5000. -/
theorem region0_array (c : Dev nD) :
    (dat0 (F := Ideal) V c).arrAt 2 cfg0.N = proj1 (V c main_arg0) (V c main_arg2) :=
  (dat0 V c).arrAt_eq_of_cover 2 (proj1 (V c main_arg0) (V c main_arg2)) (fun t _ => writeback0 V c t) fun i => by
    have hN : cfg0.N = 20 := N_0
    have h0 : (i 0).val < 100000 := (i 0).isLt
    have h1 : (i 1).val < 128 := (i 1).isLt
    obtain ⟨t, ht⟩ : ∃ t : Fin cfg0.N, t.val = (i 0).val / 5000 := ⟨⟨(i 0).val / 5000, by rw [hN]; omega⟩, rfl⟩
    obtain ⟨-, -, -, -, e20, e21⟩ := blockIndex0 t
    refine ⟨t, flush0_2 t, ?_⟩
    rw [mem_block0]
    intro a
    match a with
    | ⟨0, _⟩ =>
      show win0_2.index t (0 : Fin 2) * 5000 ≤ (i 0).val ∧ (i 0).val < win0_2.index t (0 : Fin 2) * 5000 + 5000
      rw [e20, ht]; omega
    | ⟨1, _⟩ =>
      show win0_2.index t (1 : Fin 2) * 128 ≤ (i 1).val ∧ (i 1).val < win0_2.index t (1 : Fin 2) * 128 + 128
      rw [e21]; omega

end Cert.KernelIdeal.RegionValue

end
-- ==== Proof.Region1.lean ====
/-
  Region 1: the first layer's combination, block of 4000 rows by block of 4000 rows, as a whole array.

  Each of the 25 grid points t reads rows 4000·t … 4000·t + 3999 of the aggregate and of the own rows and the whole
  bias row, and writes the same rows of the result. Entry (p, q) of what it writes is the combination's entry
  (4000·t + p, q); the 25 row blocks tile the 100000 rows (row r is in block r / 4000), so the array ends holding
  the combination.
-/
import proofs.«107032_j4621384810820_1_alg».proof.Proof.RegionSpec
import proofs.«107032_j4621384810820_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.KernelIdeal.Spec
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body reads and writes its blocks whole: from the origin (0, 0). -/
theorem origin1 : (![0, 0] : Fin 2 → Nat) = fun _ => 0 := funext fun a => by fin_cases a <;> rfl

/-- Entry (p, q) of the body's result: the maximum with 0 of (first block + second block) at (p, q) plus the bias
    row's entry (0, q). The body's shape casts are to the same shape, its additions and maximum are entry by entry,
    and the row broadcast reads row 0. -/
theorem pay1_apply (x0 x1 : Vec F S4000x128 .f32) (x2 : Vec F S1x128 .f32) (p : Fin 4000) (q : Fin 128) :
    k1_pay1 x0 x1 x2 (ValueIdx.ix2 p q)
      = FloatOps.maximumf (FloatOps.addf (FloatOps.addf (x0 (ValueIdx.ix2 p q)) (x1 (ValueIdx.ix2 p q))) (x2 (ValueIdx.ix2 ⟨0, Nat.one_pos⟩ q)))
          (Scalar.ofBits .f32 0x00000000#32) := by
  unfold k1_pay1
  simp only [shapeCast_self]
  show FloatOps.maximumf (FloatOps.addf (FloatOps.addf (x0 (ValueIdx.ix2 p q)) (x1 (ValueIdx.ix2 p q)))
      (broadcastTo S4000x128 x2 broadcasts_S1x128_S4000x128 (ValueIdx.ix2 p q))) _ = _
  rw [broadcastTo_apply x2 broadcasts_S1x128_S4000x128 (ValueIdx.ix2 p q) (ValueIdx.ix2 ⟨0, Nat.one_pos⟩ q) (fun a => by
    match a with
    | ⟨0, _⟩ => rfl
    | ⟨1, _⟩ => rfl)]
  rfl

/-- An entry j of the body's result is entry i of the combination of three arrays, as soon as the two row blocks'
    entries at j are the arrays' entries at i and the bias block's entry (0, column of j) is the bias row's entry
    for i. -/
theorem pay1_eq_combine1 (a s : (⟨S100000x128, .f32⟩ : BufTy).Contents (Elt F)) (b : (⟨S1x128, .f32⟩ : BufTy).Contents (Elt F))
    (x0 x1 : Vec F S4000x128 .f32) (x2 : Vec F S1x128 .f32) (j : S4000x128.Idx) (i : S100000x128.Idx)
    (h0 : x0 j = a i) (h1 : x1 j = s i) (h2 : x2 (ValueIdx.ix2 ⟨0, Nat.one_pos⟩ (j 1)) = b (biasAt1 i)) :
    k1_pay1 x0 x1 x2 j = combine1 a s b i := by
  obtain ⟨p, q, rfl⟩ : ∃ (p : Fin 4000) (q : Fin 128), j = ValueIdx.ix2 p q := ⟨j 0, j 1, ValueIdx.eq_ix2 j⟩
  rw [pay1_apply, h0, h1]
  unfold combine1
  rw [← h2]

/-- The blocks' positions at every grid point t: the two row-block inputs sit where the output's block sits, at
    row block t and column block 0; the bias row's one block stays at (0, 0). -/
theorem index_facts1 : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = win1_3.index t (1 : Fin 2)
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What a grid point writes back is its block of rows of the combination: the body's result entry by entry, each
    input block's entry being the array's entry at block index × block size + the coordinate inside the block. -/
theorem flushed1_eq (c : Dev nD) (t : Fin cfg1.N) :
    (dat1 (F := F) V c).flushed 3 t
      = ((cfg1.win 3).blk t).view.read (Elt F) (combine1 (V c main_v39) (V c main_v43) (V c main_v44)) := by
  show (cfg1.win 3).cut (grid1.coords t) ((dat1 V c).after 3 t) = _
  rw [after1_3]
  unfold out1_3
  rw [View.canon_unit_zero origin1]
  simp only [View.ld_unit_zero (S := S4000x128) origin1, View.ld_unit_zero (S := S1x128) origin1]
  obtain ⟨e00, e01, e10, e11, e20, e21, e30, e31⟩ := index_facts1 t
  funext j
  show k1_pay1 (iblk1 V c 0 t) (iblk1 V c 1 t) (iblk1 V c 2 t) j
      = combine1 (V c main_v39) (V c main_v43) (V c main_v44) (((cfg1.win 3).blk t).view.emb j)
  refine pay1_eq_combine1 _ _ _ _ _ _ j _ ?_ ?_ ?_
  · show V c main_v39 (((cfg1.win 0).blk t).view.emb j) = V c main_v39 (((cfg1.win 3).blk t).view.emb j)
    refine congrArg _ (funext fun a => Fin.ext ?_)
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 128 + 1 * (j 1).val = win1_3.index t (1 : Fin 2) * 128 + 1 * (j 1).val; omega
  · show V c main_v43 (((cfg1.win 1).blk t).view.emb j) = V c main_v43 (((cfg1.win 3).blk t).view.emb j)
    refine congrArg _ (funext fun a => Fin.ext ?_)
    match a with
    | ⟨0, _⟩ => show win1_1.index t (0 : Fin 2) * 4000 + 1 * (j 0).val = win1_3.index t (0 : Fin 2) * 4000 + 1 * (j 0).val; omega
    | ⟨1, _⟩ => show win1_1.index t (1 : Fin 2) * 128 + 1 * (j 1).val = win1_3.index t (1 : Fin 2) * 128 + 1 * (j 1).val; omega
  · show V c main_v44 (((cfg1.win 2).blk t).view.emb (ValueIdx.ix2 ⟨0, Nat.one_pos⟩ (j 1)))
        = V c main_v44 (biasAt1 (((cfg1.win 3).blk t).view.emb j))
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An entry of the array is in a point's block iff each coordinate is in the block's range on its axis. -/
theorem mem_block1 (t : Fin cfg1.N) (i : S100000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v45).slice (win1_3.rect t)).set ↔ _
  rw [View.set_slice_whole, Rect.mem_set_unit]
  exact Iff.rfl

/-- After its 25 grid points region 1's output array holds the combination of the three arrays it reads. -/
theorem region1_array (c : Dev nD) :
    (dat1 (F := F) V c).arrAt 3 cfg1.N = combine1 (V c main_v39) (V c main_v43) (V c main_v44) :=
  -- every point writes its rows of the combination, and row r lies in the block of point r / 4000
  (dat1 (F := F) V c).arrAt_eq_of_cover 3 (combine1 (V c main_v39) (V c main_v43) (V c main_v44))
    (fun t _ => flushed1_eq V c t) fun i => by
      have hi0 : (i 0).val < 100000 := (i 0).isLt
      have hi1 : (i 1).val < 128 := (i 1).isLt
      have hN : cfg1.N = 25 := N_1
      obtain ⟨t, ht⟩ : ∃ t : Fin cfg1.N, t.val = (i 0).val / 4000 := ⟨⟨(i 0).val / 4000, by rw [hN]; omega⟩, rfl⟩
      obtain ⟨-, -, -, -, -, -, e30, e31⟩ := index_facts1 t
      refine ⟨t, flush1_3 t, ?_⟩
      rw [mem_block1]
      intro a
      match a with
      | ⟨0, _⟩ =>
        show win1_3.index t (0 : Fin 2) * 4000 ≤ (i 0).val ∧ (i 0).val < win1_3.index t (0 : Fin 2) * 4000 + 4000
        omega
      | ⟨1, _⟩ =>
        show win1_3.index t (1 : Fin 2) * 128 ≤ (i 1).val ∧ (i 1).val < win1_3.index t (1 : Fin 2) * 128 + 128
        omega

end Cert.KernelIdeal.RegionValue

end
-- ==== Proof.Region2.lean ====
/-
  Region 2: the second projection, block of 5000 rows by block of 5000 rows, is h · W2 as a whole array.

  Point t of the 20 multiplies rows 5000·t … 5000·t + 4999 of the hidden features h by the whole of W2 and writes the
  product to the same rows of the output. On the extended reals a cast of a block to its own shape and a change of
  float format are the identity, and a product accumulated into the zero matrix is the plain sum over the contracted
  axis, so entry (p, q) of point t's block is ∑ k, h[5000·t + p, k] · W2[k, q]: the restriction of h · W2 to the
  block's rows. The 20 blocks tile the 100000 rows (row r lies in block r / 5000), so the array ends holding h · W2.
-/
import proofs.«107032_j4621384810820_1_alg».proof.Proof.RegionSpec
import proofs.«107032_j4621384810820_1_alg».proof.Proof.Gen.KernelIdeal.Frame
import proofs.«107032_j4621384810820_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.KernelIdeal.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body reads and writes its whole blocks: the offsets of its rectangles are zero on both axes. -/
theorem zeroOffsets2 : (![0, 0] : Fin 2 → Nat) = fun _ => 0 := funext fun a => by fin_cases a <;> rfl

/-- The block indices at point t, decided over the 20 points: the blocks of h and of the output are block t along
    the rows and block 0 along the columns; the one block of W2 has index 0 on both axes. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, q) of the body's product of a [5000, 128] block and a [128, 64] block: the cast of the left block to
    its own shape and the narrowing of the two operands are the identity on the extended reals, and the product into
    the zero accumulator is the plain sum over the 128 contracted coordinates. -/
theorem product_entry2 (x0 : Vec Ideal S5000x128 .f32) (x1 : Vec Ideal S128x64 .f32) (p : Fin 5000) (q : Fin 64) :
    k2_pay1 x0 x1 (ValueIdx.ix2 p q) = ∑ k : Fin 128, x0 (ValueIdx.ix2 p k) * x1 (ValueIdx.ix2 k q) := by
  unfold k2_pay1
  refine (ValueIdx.matmul_plain_zero_apply _ rfl none _ _ p q).trans ?_
  rw [shapeCast_self]
  rfl

/-- Entry y of the product of two blocks is entry i of the whole projection h · W, when the left block is rows
    T·5000 … T·5000 + 4999 of h, the right block is all of W, and i is y moved down by T·5000 rows. -/
theorem block_entry2 (x0 : Vec Ideal S5000x128 .f32) (x1 : Vec Ideal S128x64 .f32)
    (X : (⟨S100000x128, .f32⟩ : BufTy).Contents (Elt Ideal)) (W : (⟨S128x64, .f32⟩ : BufTy).Contents (Elt Ideal))
    (T : Nat) (y : S5000x64.Idx) (i : S100000x64.Idx)
    (hrow : (i 0).val = T * 5000 + (y 0).val) (hcol : (i 1).val = (y 1).val)
    (hx0 : ∀ (p : Fin 5000) (k : Fin 128) (z : S100000x128.Idx), (z 0).val = T * 5000 + p.val → (z 1).val = k.val →
      x0 (ValueIdx.ix2 p k) = X z)
    (hx1 : ∀ (k : Fin 128) (q : Fin 64) (z : S128x64.Idx), (z 0).val = k.val → (z 1).val = q.val →
      x1 (ValueIdx.ix2 k q) = W z) :
    k2_pay1 x0 x1 y = proj2 X W i := by
  obtain ⟨p, q, rfl⟩ : ∃ (p : Fin 5000) (q : Fin 64), y = ValueIdx.ix2 p q := ⟨y 0, y 1, ValueIdx.eq_ix2 y⟩
  rw [product_entry2]
  unfold proj2
  refine Finset.sum_congr rfl fun k _ => ?_
  rw [hx0 p k (lrow2 i k) hrow rfl, hx1 k q (rcol2 i k) rfl hcol]

/-- What point t writes back is block t of h · W2: an element of a block sits in its array, on each axis, at the
    block's index times the block's extent plus its coordinate inside the block. -/
theorem writeback2 (c : Dev nD) (t : Fin cfg2.N) :
    (dat2 (F := Ideal) V c).flushed 2 t
      = ((cfg2.win 2).blk t).view.read (Elt Ideal) (proj2 (V c main_v45) (V c main_arg4)) := by
  show (cfg2.win 2).cut (grid2.coords t) ((dat2 V c).after 2 t) = _
  rw [after2_2]
  unfold out2_2
  rw [View.canon_unit_zero zeroOffsets2]
  simp only [View.ld_unit_zero (S := S5000x128) zeroOffsets2, View.ld_unit_zero (S := S128x64) zeroOffsets2]
  obtain ⟨e00, e01, e10, e11, e20, e21⟩ := blockIndex2 t
  funext j
  rw [View.read_apply]
  refine block_entry2 (iblk2 V c 0 t) (iblk2 V c 1 t) (V c main_v45) (V c main_arg4) t.val
    ((cfg2.win 2).xinj (grid2.coords t) j) (((cfg2.win 2).blk t).view.emb j) ?_ ?_ ?_ ?_
  · show win2_2.index t (0 : Fin 2) * 5000 + 1 * (j 0).val = t.val * 5000 + (j 0).val
    rw [e20]; omega
  · show win2_2.index t (1 : Fin 2) * 64 + 1 * (j 1).val = (j 1).val
    rw [e21]; omega
  · intro p k z h0 h1
    unfold iblk2
    rw [View.read_apply]
    show V c main_v45 _ = V c main_v45 z
    congr 1
    funext a
    apply Fin.ext
    match a with
    | ⟨0, _⟩ => show win2_0.index t (0 : Fin 2) * 5000 + 1 * p.val = (z 0).val; rw [e00, h0]; omega
    | ⟨1, _⟩ => show win2_0.index t (1 : Fin 2) * 128 + 1 * k.val = (z 1).val; rw [e01, h1]; omega
  · intro k q z h0 h1
    unfold iblk2
    rw [View.read_apply]
    show V c main_arg4 _ = V c main_arg4 z
    congr 1
    funext a
    apply Fin.ext
    match a with
    | ⟨0, _⟩ => show win2_1.index t (0 : Fin 2) * 128 + 1 * k.val = (z 0).val; rw [e10, h0]; omega
    | ⟨1, _⟩ => show win2_1.index t (1 : Fin 2) * 64 + 1 * q.val = (z 1).val; rw [e11, h1]; omega

/-- An entry of the array is in point t's block iff, on each axis, its coordinate is within the block's extent
    from the block's first coordinate. -/
theorem mem_block2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- After its 20 grid points region 2's output array holds the projection of the two arrays it reads: every point
    writes its block of h · W2, and row r of the array lies in the block of point r / 5000. -/
theorem region2_array (c : Dev nD) :
    (dat2 (F := Ideal) V c).arrAt 2 cfg2.N = proj2 (V c main_v45) (V c main_arg4) :=
  (dat2 V c).arrAt_eq_of_cover 2 (proj2 (V c main_v45) (V c main_arg4)) (fun t _ => writeback2 V c t) fun i => by
    have hN : cfg2.N = 20 := N_2
    have h0 : (i 0).val < 100000 := (i 0).isLt
    have h1 : (i 1).val < 64 := (i 1).isLt
    obtain ⟨t, ht⟩ : ∃ t : Fin cfg2.N, t.val = (i 0).val / 5000 := ⟨⟨(i 0).val / 5000, by rw [hN]; omega⟩, rfl⟩
    obtain ⟨-, -, -, -, e20, e21⟩ := blockIndex2 t
    refine ⟨t, flush2_2 t, ?_⟩
    rw [mem_block2]
    intro a
    match a with
    | ⟨0, _⟩ =>
      show win2_2.index t (0 : Fin 2) * 5000 ≤ (i 0).val ∧ (i 0).val < win2_2.index t (0 : Fin 2) * 5000 + 5000
      rw [e20, ht]; omega
    | ⟨1, _⟩ =>
      show win2_2.index t (1 : Fin 2) * 64 ≤ (i 1).val ∧ (i 1).val < win2_2.index t (1 : Fin 2) * 64 + 64
      rw [e21]; omega

end Cert.KernelIdeal.RegionValue

end
-- ==== Proof.Region3.lean ====
/-
  Region 3: the second layer's combination, block of 4000 rows by block of 4000 rows, as a whole array.

  Each of the 25 grid points t reads rows 4000·t … 4000·t + 3999 of the aggregate and of the own rows and the whole
  bias row, and writes the same rows of the result. Entry (p, q) of what it writes is the combination's entry
  (4000·t + p, q); the 25 row blocks tile the 100000 rows (row r is in block r / 4000), so the array ends holding
  the combination.
-/
import proofs.«107032_j4621384810820_1_alg».proof.Proof.RegionSpec
import proofs.«107032_j4621384810820_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.KernelIdeal.Spec
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body reads and writes its blocks whole: from the origin (0, 0). -/
theorem origin3 : (![0, 0] : Fin 2 → Nat) = fun _ => 0 := funext fun a => by fin_cases a <;> rfl

/-- Entry (p, q) of the body's result: (first block + second block) at (p, q) plus the bias row's entry (0, q).
    The body's shape casts are to the same shape, its additions are entry by entry, and the row broadcast reads
    row 0. -/
theorem pay3_apply (x0 x1 : Vec F S4000x64 .f32) (x2 : Vec F S1x64 .f32) (p : Fin 4000) (q : Fin 64) :
    k3_pay1 x0 x1 x2 (ValueIdx.ix2 p q)
      = FloatOps.addf (FloatOps.addf (x0 (ValueIdx.ix2 p q)) (x1 (ValueIdx.ix2 p q))) (x2 (ValueIdx.ix2 ⟨0, Nat.one_pos⟩ q)) := by
  unfold k3_pay1
  simp only [shapeCast_self]
  show FloatOps.addf (FloatOps.addf (x0 (ValueIdx.ix2 p q)) (x1 (ValueIdx.ix2 p q)))
      (broadcastTo S4000x64 x2 broadcasts_S1x64_S4000x64 (ValueIdx.ix2 p q)) = _
  rw [broadcastTo_apply x2 broadcasts_S1x64_S4000x64 (ValueIdx.ix2 p q) (ValueIdx.ix2 ⟨0, Nat.one_pos⟩ q) (fun a => by
    match a with
    | ⟨0, _⟩ => rfl
    | ⟨1, _⟩ => rfl)]

/-- An entry j of the body's result is entry i of the combination of three arrays, as soon as the two row blocks'
    entries at j are the arrays' entries at i and the bias block's entry (0, column of j) is the bias row's entry
    for i. -/
theorem pay3_eq_combine2 (a s : (⟨S100000x64, .f32⟩ : BufTy).Contents (Elt F)) (b : (⟨S1x64, .f32⟩ : BufTy).Contents (Elt F))
    (x0 x1 : Vec F S4000x64 .f32) (x2 : Vec F S1x64 .f32) (j : S4000x64.Idx) (i : S100000x64.Idx)
    (h0 : x0 j = a i) (h1 : x1 j = s i) (h2 : x2 (ValueIdx.ix2 ⟨0, Nat.one_pos⟩ (j 1)) = b (biasAt2 i)) :
    k3_pay1 x0 x1 x2 j = combine2 a s b i := by
  obtain ⟨p, q, rfl⟩ : ∃ (p : Fin 4000) (q : Fin 64), j = ValueIdx.ix2 p q := ⟨j 0, j 1, ValueIdx.eq_ix2 j⟩
  rw [pay3_apply, h0, h1]
  unfold combine2
  rw [← h2]

/-- The blocks' positions at every grid point t: the two row-block inputs sit where the output's block sits, at
    row block t and column block 0; the bias row's one block stays at (0, 0). -/
theorem index_facts3 : ∀ t : Fin cfg3.N,
    win3_0.index t (0 : Fin 2) = win3_3.index t (0 : Fin 2) ∧ win3_0.index t (1 : Fin 2) = win3_3.index t (1 : Fin 2)
    ∧ win3_1.index t (0 : Fin 2) = win3_3.index t (0 : Fin 2) ∧ win3_1.index t (1 : Fin 2) = win3_3.index t (1 : Fin 2)
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What a grid point writes back is its block of rows of the combination: the body's result entry by entry, each
    input block's entry being the array's entry at block index × block size + the coordinate inside the block. -/
theorem flushed3_eq (c : Dev nD) (t : Fin cfg3.N) :
    (dat3 (F := F) V c).flushed 3 t
      = ((cfg3.win 3).blk t).view.read (Elt F) (combine2 (V c main_v81) (V c main_v85) (V c main_v86)) := by
  show (cfg3.win 3).cut (grid3.coords t) ((dat3 V c).after 3 t) = _
  rw [after3_3]
  unfold out3_3
  rw [View.canon_unit_zero origin3]
  simp only [View.ld_unit_zero (S := S4000x64) origin3, View.ld_unit_zero (S := S1x64) origin3]
  obtain ⟨e00, e01, e10, e11, e20, e21, e30, e31⟩ := index_facts3 t
  funext j
  show k3_pay1 (iblk3 V c 0 t) (iblk3 V c 1 t) (iblk3 V c 2 t) j
      = combine2 (V c main_v81) (V c main_v85) (V c main_v86) (((cfg3.win 3).blk t).view.emb j)
  refine pay3_eq_combine2 _ _ _ _ _ _ j _ ?_ ?_ ?_
  · show V c main_v81 (((cfg3.win 0).blk t).view.emb j) = V c main_v81 (((cfg3.win 3).blk t).view.emb j)
    refine congrArg _ (funext fun a => Fin.ext ?_)
    match a with
    | ⟨0, _⟩ => show win3_0.index t (0 : Fin 2) * 4000 + 1 * (j 0).val = win3_3.index t (0 : Fin 2) * 4000 + 1 * (j 0).val; omega
    | ⟨1, _⟩ => show win3_0.index t (1 : Fin 2) * 64 + 1 * (j 1).val = win3_3.index t (1 : Fin 2) * 64 + 1 * (j 1).val; omega
  · show V c main_v85 (((cfg3.win 1).blk t).view.emb j) = V c main_v85 (((cfg3.win 3).blk t).view.emb j)
    refine congrArg _ (funext fun a => Fin.ext ?_)
    match a with
    | ⟨0, _⟩ => show win3_1.index t (0 : Fin 2) * 4000 + 1 * (j 0).val = win3_3.index t (0 : Fin 2) * 4000 + 1 * (j 0).val; omega
    | ⟨1, _⟩ => show win3_1.index t (1 : Fin 2) * 64 + 1 * (j 1).val = win3_3.index t (1 : Fin 2) * 64 + 1 * (j 1).val; omega
  · show V c main_v86 (((cfg3.win 2).blk t).view.emb (ValueIdx.ix2 ⟨0, Nat.one_pos⟩ (j 1)))
        = V c main_v86 (biasAt2 (((cfg3.win 3).blk t).view.emb j))
    refine congrArg _ (funext fun a => Fin.ext ?_)
    match a with
    | ⟨0, _⟩ => show win3_2.index t (0 : Fin 2) * 1 + 1 * 0 = 0; omega
    | ⟨1, _⟩ => show win3_2.index t (1 : Fin 2) * 64 + 1 * (j 1).val = win3_3.index t (1 : Fin 2) * 64 + 1 * (j 1).val; omega

/-- An entry of the array is in a point's block iff each coordinate is in the block's range on its axis. -/
theorem mem_block3 (t : Fin cfg3.N) (i : S100000x64.Idx) :
    i ∈ ((cfg3.win 3).blk t).view.set ↔ ∀ a : Fin 2, win3_3.index t a * S4000x64.size a ≤ (i a).val
      ∧ (i a).val < win3_3.index t a * S4000x64.size a + S4000x64.size a := by
  show i ∈ ((View.whole main_v87).slice (win3_3.rect t)).set ↔ _
  rw [View.set_slice_whole, Rect.mem_set_unit]
  exact Iff.rfl

/-- After its 25 grid points region 3's output array holds the combination of the three arrays it reads. -/
theorem region3_array (c : Dev nD) :
    (dat3 (F := F) V c).arrAt 3 cfg3.N = combine2 (V c main_v81) (V c main_v85) (V c main_v86) :=
  -- every point writes its rows of the combination, and row r lies in the block of point r / 4000
  (dat3 (F := F) V c).arrAt_eq_of_cover 3 (combine2 (V c main_v81) (V c main_v85) (V c main_v86))
    (fun t _ => flushed3_eq V c t) fun i => by
      have hi0 : (i 0).val < 100000 := (i 0).isLt
      have hi1 : (i 1).val < 64 := (i 1).isLt
      have hN : cfg3.N = 25 := N_3
      obtain ⟨t, ht⟩ : ∃ t : Fin cfg3.N, t.val = (i 0).val / 4000 := ⟨⟨(i 0).val / 4000, by rw [hN]; omega⟩, rfl⟩
      obtain ⟨-, -, -, -, -, -, e30, e31⟩ := index_facts3 t
      refine ⟨t, flush3_3 t, ?_⟩
      rw [mem_block3]
      intro a
      match a with
      | ⟨0, _⟩ =>
        show win3_3.index t (0 : Fin 2) * 4000 ≤ (i 0).val ∧ (i 0).val < win3_3.index t (0 : Fin 2) * 4000 + 4000
        omega
      | ⟨1, _⟩ =>
        show win3_3.index t (1 : Fin 2) * 64 ≤ (i 1).val ∧ (i 1).val < win3_3.index t (1 : Fin 2) * 64 + 64
        omega

end Cert.KernelIdeal.RegionValue

end
-- ==== Proof.HostStretches.lean ====
/-
  The host operations between the regions, read as functions of what they are applied to.

  Both programs apply the SAME host operations to the projected node features h: gather the rows of h at the edges'
  source nodes, scale each edge's row by the two endpoint degrees' inverse square roots, add the rows up at the
  target nodes (the aggregate), and scale each node's own row by its inverse degree (the own row). The degrees,
  and so every scale, depend on the edge list only. Naming the aggregate and the own row as functions of h and
  the edge list, over the reference's own stages, lets the kernel's stretches of host operations be read as those
  same functions of the array a region left — and the chain of gathers and scatter-adds is never opened.
-/
import proofs.«107032_j4621384810820_1_alg».proof.Proof.Gen.KernelIdeal.Launch
import proofs.«107032_j4621384810820_1_alg».proof.Proof.Gen.ReferenceIdeal.Read
import Idealize.ShloMosaic.Lib.StableHlo.Run

set_option maxRecDepth 16384

noncomputable section

namespace Cert.ReferenceIdeal.Layer

open Cert.ReferenceIdeal Cert.ReferenceIdeal.Gen Cert.ReferenceIdeal.Read Idealize.ShloMosaic

variable {F : FTy → Type} [FloatOps F]

/-- The first layer's aggregate of projected features h over the edge list e. -/
def agg1 (h : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1600000x1_S1600000x128_1_0_0_1 (val_main_v37 (F := F)) (val_main_v38 (F := F) e)
    (mulf (Host.gather gather_S100000x128_S1600000x1_S1600000x128_1_0_n_n_0_1_1128 h (val_main_v32 (F := F) e)) (val_main_v35 (F := F) e))

/-- The first layer's own rows: h scaled node by node by the inverse degree. -/
def own1 (h : (⟨S100000x128, .f32⟩ : BufTy).Contents (Elt F)) (e : (⟨S2x1600000, .i32⟩ : BufTy).Contents (Elt F)) :
    (⟨S100000x128, .f32⟩ : BufTy).Contents (Elt F) :=
  mulf h (val_main_v42 (F := F) e)

/-- The second layer's aggregate of projected features h over the edge list e. -/
def agg2 (h : (⟨S100000x64, .f32⟩ : BufTy).Contents (Elt F)) (e : (⟨S2x1600000, .i32⟩ : BufTy).Contents (Elt F)) :
    (⟨S100000x64, .f32⟩ : BufTy).Contents (Elt F) :=
  Host.scatterAdd scatter_S100000x64_S1600000x1_S1600000x64_1_0_0_1 (val_main_v82 (F := F)) (val_main_v83 (F := F) e)
    (mulf (Host.gather gather_S100000x64_S1600000x1_S1600000x64_1_0_n_n_0_1_164 h (val_main_v77 (F := F) e)) (val_main_v80 (F := F) e))

/-- The second layer's own rows. -/
def own2 (h : (⟨S100000x64, .f32⟩ : BufTy).Contents (Elt F)) (e : (⟨S2x1600000, .i32⟩ : BufTy).Contents (Elt F)) :
    (⟨S100000x64, .f32⟩ : BufTy).Contents (Elt F) :=
  mulf h (val_main_v87 (F := F) e)

/-- The reference's aggregate and own rows are these functions of ITS projections. -/
theorem v39_eq (x0 : (⟨S100000x128, .f32⟩ : BufTy).Contents (Elt F)) (x1 : (⟨S2x1600000, .i32⟩ : BufTy).Contents (Elt F)) (x2 : (⟨S128x128, .f32⟩ : BufTy).Contents (Elt F)) :
    val_main_v39 (F := F) x0 x1 x2 = agg1 (val_main_v4 (F := F) x0 x2) x1 := rfl
theorem v43_eq (x0 : (⟨S100000x128, .f32⟩ : BufTy).Contents (Elt F)) (x1 : (⟨S2x1600000, .i32⟩ : BufTy).Contents (Elt F)) (x2 : (⟨S128x128, .f32⟩ : BufTy).Contents (Elt F)) :
    val_main_v43 (F := F) x0 x1 x2 = own1 (val_main_v4 (F := F) x0 x2) x1 := rfl
theorem v84_eq (x0 : (⟨S100000x128, .f32⟩ : BufTy).Contents (Elt F)) (x1 : (⟨S2x1600000, .i32⟩ : BufTy).Contents (Elt F)) (x2 : (⟨S128x128, .f32⟩ : BufTy).Contents (Elt F))
    (x3 : (⟨S128, .f32⟩ : BufTy).Contents (Elt F)) (x4 : (⟨S128x64, .f32⟩ : BufTy).Contents (Elt F)) :
    val_main_v84 (F := F) x0 x1 x2 x3 x4 = agg2 (val_main_v49 (F := F) x0 x1 x2 x3 x4) x1 := rfl
theorem v88_eq (x0 : (⟨S100000x128, .f32⟩ : BufTy).Contents (Elt F)) (x1 : (⟨S2x1600000, .i32⟩ : BufTy).Contents (Elt F)) (x2 : (⟨S128x128, .f32⟩ : BufTy).Contents (Elt F))
    (x3 : (⟨S128, .f32⟩ : BufTy).Contents (Elt F)) (x4 : (⟨S128x64, .f32⟩ : BufTy).Contents (Elt F)) :
    val_main_v88 (F := F) x0 x1 x2 x3 x4 = own2 (val_main_v49 (F := F) x0 x1 x2 x3 x4) x1 := rfl

end Cert.ReferenceIdeal.Layer

namespace Cert.KernelIdeal.Stretch

open Cert.KernelIdeal Cert.KernelIdeal.Gen Idealize.ShloMosaic Idealize.ShloMosaic.TcCoe Idealize.SL.Sem Idealize.ShloMosaic.StableHlo

variable {F : FTy → Type} [FloatOps F]
variable (W : Valuation τ sig (Elt F))

/-! ## The first stretch: the edge list split into its source and target rows -/

theorem first_src : after hostOps0 W (Proc.devRef .tc main_v1) = Cert.ReferenceIdeal.Read.val_main_v1 (F := F) (W (Proc.devRef .tc main_arg1)) := by
  after_results; rfl
theorem first_dst : after hostOps0 W (Proc.devRef .tc main_v3) = Cert.ReferenceIdeal.Read.val_main_v3 (F := F) (W (Proc.devRef .tc main_arg1)) := by
  after_results; rfl

/-- The first stretch writes no argument. -/
theorem first_keeps_arg0 : after hostOps0 W (Proc.devRef .tc main_arg0) = W (Proc.devRef .tc main_arg0) := by after_results
theorem first_keeps_arg2 : after hostOps0 W (Proc.devRef .tc main_arg2) = W (Proc.devRef .tc main_arg2) := by after_results
theorem first_keeps_arg3 : after hostOps0 W (Proc.devRef .tc main_arg3) = W (Proc.devRef .tc main_arg3) := by after_results
theorem first_keeps_arg4 : after hostOps0 W (Proc.devRef .tc main_arg4) = W (Proc.devRef .tc main_arg4) := by after_results
theorem first_keeps_arg5 : after hostOps0 W (Proc.devRef .tc main_arg5) = W (Proc.devRef .tc main_arg5) := by after_results

/-! ## The stretch between the first projection and the first combination -/

section Second
variable (e : (⟨Cert.ReferenceIdeal.S2x1600000, .i32⟩ : BufTy).Contents (Elt F))
variable (hs : W (Proc.devRef .tc main_v1) = Cert.ReferenceIdeal.Read.val_main_v1 (F := F) e)
variable (ht : W (Proc.devRef .tc main_v3) = Cert.ReferenceIdeal.Read.val_main_v3 (F := F) e)
include hs ht

/-- The aggregate array region 1 reads is the first layer's aggregate of the array region 0 left. -/
theorem second_agg : after hostOps1 W (Proc.devRef .tc main_v39) = Cert.ReferenceIdeal.Layer.agg1 (W (Proc.devRef .tc main_v4)) e := by
  after_results_simp
  rw [hs, ht]; rfl
/-- The own-row array region 1 reads is the first layer's own rows of the array region 0 left. -/
theorem second_own : after hostOps1 W (Proc.devRef .tc main_v43) = Cert.ReferenceIdeal.Layer.own1 (W (Proc.devRef .tc main_v4)) e := by
  after_results_simp
  rw [ht]; rfl
end Second

/-- The bias row region 1 reads is the bias vector recast as one row. -/
theorem second_bias : after hostOps1 W (Proc.devRef .tc main_v44)
    = (shapeCast S1x128 (W (Proc.devRef .tc main_arg3)) shapeCasts_S128_S1x128 : (⟨S1x128, .f32⟩ : BufTy).Contents (Elt F)) := by
  after_results_simp
  rfl
theorem second_keeps_v1 : after hostOps1 W (Proc.devRef .tc main_v1) = W (Proc.devRef .tc main_v1) := by after_results_simp
theorem second_keeps_v3 : after hostOps1 W (Proc.devRef .tc main_v3) = W (Proc.devRef .tc main_v3) := by after_results_simp
theorem second_keeps_arg4 : after hostOps1 W (Proc.devRef .tc main_arg4) = W (Proc.devRef .tc main_arg4) := by after_results_simp
theorem second_keeps_arg5 : after hostOps1 W (Proc.devRef .tc main_arg5) = W (Proc.devRef .tc main_arg5) := by after_results_simp

/-! ## The stretch between the second projection and the second combination -/

section Third
variable (e : (⟨Cert.ReferenceIdeal.S2x1600000, .i32⟩ : BufTy).Contents (Elt F))
variable (hs : W (Proc.devRef .tc main_v1) = Cert.ReferenceIdeal.Read.val_main_v1 (F := F) e)
variable (ht : W (Proc.devRef .tc main_v3) = Cert.ReferenceIdeal.Read.val_main_v3 (F := F) e)
include hs ht

/-- The aggregate array region 3 reads is the second layer's aggregate of the array region 2 left. -/
theorem third_agg : after hostOps3 W (Proc.devRef .tc main_v81) = Cert.ReferenceIdeal.Layer.agg2 (W (Proc.devRef .tc main_v46)) e := by
  after_results_simp
  rw [hs, ht]; rfl
/-- The own-row array region 3 reads is the second layer's own rows of the array region 2 left. -/
theorem third_own : after hostOps3 W (Proc.devRef .tc main_v85) = Cert.ReferenceIdeal.Layer.own2 (W (Proc.devRef .tc main_v46)) e := by
  after_results_simp
  rw [ht]; rfl
end Third

/-- The bias row region 3 reads is the bias vector recast as one row. -/
theorem third_bias : after hostOps3 W (Proc.devRef .tc main_v86)
    = (shapeCast S1x64 (W (Proc.devRef .tc main_arg5)) shapeCasts_S64_S1x64 : (⟨S1x64, .f32⟩ : BufTy).Contents (Elt F)) := by
  after_results_simp
  rfl

end Cert.KernelIdeal.Stretch

end
-- ==== Proof.Network.lean ====
/-
  The two-layer network as ONE function of the six argument arrays, and the reference read as that function.

  hidden = positive part of ( aggregate(x · W1) + own(x · W1) + b1 ),   net = aggregate(hidden · W2) + own(hidden · W2) + b2,
  the aggregate and the own rows being the shared host chains of the edge list (never opened here). The reference
  computes exactly this: its two dot_generals are the two projections entry by entry (a sum over the contracted
  axis), its bias broadcasts read the bias vector at the entry's column — as the bias vector recast as one row
  does at (0, column) —, and its relu is the maximum with the zero constant. No law of the extended reals beyond
  reading a contraction as a sum is used, and no finiteness.
-/
import proofs.«107032_j4621384810820_1_alg».proof.Proof.RegionSpec
import proofs.«107032_j4621384810820_1_alg».proof.Proof.HostStretches
import Idealize.ShloMosaic.Lib.Pipeline.Value
import Idealize.ShloMosaic.Lib.ValueIdx

set_option maxRecDepth 16384

noncomputable section

namespace Cert.KernelIdeal.Network

open Cert.KernelIdeal Cert.KernelIdeal.Gen Cert.KernelIdeal.Spec Idealize.ShloMosaic

/-- The hidden features: the first layer's result. -/
def hidden (x : (⟨S100000x128, .f32⟩ : BufTy).Contents (Elt Ideal)) (e : (⟨S2x1600000, .i32⟩ : BufTy).Contents (Elt Ideal)) (w1 : (⟨S128x128, .f32⟩ : BufTy).Contents (Elt Ideal))
    (b1 : (⟨S128, .f32⟩ : BufTy).Contents (Elt Ideal)) : (⟨S100000x128, .f32⟩ : BufTy).Contents (Elt Ideal) :=
  combine1 (Cert.ReferenceIdeal.Layer.agg1 (proj1 x w1) e) (Cert.ReferenceIdeal.Layer.own1 (proj1 x w1) e) (shapeCast S1x128 b1 shapeCasts_S128_S1x128)

/-- The network's result. -/
def net (x : (⟨S100000x128, .f32⟩ : BufTy).Contents (Elt Ideal)) (e : (⟨S2x1600000, .i32⟩ : BufTy).Contents (Elt Ideal)) (w1 : (⟨S128x128, .f32⟩ : BufTy).Contents (Elt Ideal))
    (b1 : (⟨S128, .f32⟩ : BufTy).Contents (Elt Ideal)) (w2 : (⟨S128x64, .f32⟩ : BufTy).Contents (Elt Ideal)) (b2 : (⟨S64, .f32⟩ : BufTy).Contents (Elt Ideal)) : (⟨S100000x64, .f32⟩ : BufTy).Contents (Elt Ideal) :=
  combine2 (Cert.ReferenceIdeal.Layer.agg2 (proj2 (hidden x e w1 b1) w2) e) (Cert.ReferenceIdeal.Layer.own2 (proj2 (hidden x e w1 b1) w2) e)
    (shapeCast S1x64 b2 shapeCasts_S64_S1x64)

/-! ## The reference's pieces -/

/-- The reference's first dot_general is the first projection. -/
theorem dot1_is_proj1 (x : (⟨S100000x128, .f32⟩ : BufTy).Contents (Elt Ideal)) (w1 : (⟨S128x128, .f32⟩ : BufTy).Contents (Elt Ideal)) :
    Cert.ReferenceIdeal.Read.val_main_v4 (F := Ideal) x w1 = proj1 x w1 := by
  funext i
  rw [Cert.ReferenceIdeal.Read.val_main_v4_apply]
  rfl

/-- The first bias, broadcast over the rows, reads at an entry what the bias recast as one row reads at (0, column). -/
theorem bias1_at (b1 : (⟨S128, .f32⟩ : BufTy).Contents (Elt Ideal)) (i : S100000x128.Idx) :
    Cert.ReferenceIdeal.Read.val_main_v46 (F := Ideal) b1 i = shapeCast S1x128 b1 shapeCasts_S128_S1x128 (biasAt1 i) := by
  rw [Cert.ReferenceIdeal.Read.val_main_v46_apply, Cert.ReferenceIdeal.Read.val_main_v45_apply]
  refine (shapeCast_apply b1 shapeCasts_S128_S1x128 (biasAt1 i) _ ?_).symm
  rw [Shape.rowMajor_val_one, Shape.rowMajor_val_two]
  show (i 1).val = 0 * 128 + (i 1).val
  omega

/-- The second bias likewise. -/
theorem bias2_at (b2 : (⟨S64, .f32⟩ : BufTy).Contents (Elt Ideal)) (i : S100000x64.Idx) :
    Cert.ReferenceIdeal.Read.val_main_v91 (F := Ideal) b2 i = shapeCast S1x64 b2 shapeCasts_S64_S1x64 (biasAt2 i) := by
  rw [Cert.ReferenceIdeal.Read.val_main_v91_apply, Cert.ReferenceIdeal.Read.val_main_v90_apply]
  refine (shapeCast_apply b2 shapeCasts_S64_S1x64 (biasAt2 i) _ ?_).symm
  rw [Shape.rowMajor_val_one, Shape.rowMajor_val_two]
  show (i 1).val = 0 * 64 + (i 1).val
  omega

/-- The reference's hidden features (after its relu) are `hidden`. -/
theorem relu_is_hidden (x : (⟨S100000x128, .f32⟩ : BufTy).Contents (Elt Ideal)) (e : (⟨S2x1600000, .i32⟩ : BufTy).Contents (Elt Ideal)) (w1 : (⟨S128x128, .f32⟩ : BufTy).Contents (Elt Ideal))
    (b1 : (⟨S128, .f32⟩ : BufTy).Contents (Elt Ideal)) :
    Cert.ReferenceIdeal.Read.val_main_v48 (F := Ideal) x e w1 b1 = hidden x e w1 b1 := by
  funext i
  rw [Cert.ReferenceIdeal.Read.val_main_v48_apply, Cert.ReferenceIdeal.Read.val_main_v47_apply, Cert.ReferenceIdeal.Read.val_main_v44_apply, Cert.ReferenceIdeal.Layer.v39_eq, Cert.ReferenceIdeal.Layer.v43_eq, dot1_is_proj1,
    bias1_at, Cert.ReferenceIdeal.Read.val_main_call0_v0_apply, Cert.ReferenceIdeal.Read.val_main_call0_cst_apply]
  rfl

/-- The reference's second dot_general is the second projection of the hidden features. -/
theorem dot2_is_proj2 (x : (⟨S100000x128, .f32⟩ : BufTy).Contents (Elt Ideal)) (e : (⟨S2x1600000, .i32⟩ : BufTy).Contents (Elt Ideal)) (w1 : (⟨S128x128, .f32⟩ : BufTy).Contents (Elt Ideal))
    (b1 : (⟨S128, .f32⟩ : BufTy).Contents (Elt Ideal)) (w2 : (⟨S128x64, .f32⟩ : BufTy).Contents (Elt Ideal)) :
    Cert.ReferenceIdeal.Read.val_main_v49 (F := Ideal) x e w1 b1 w2 = proj2 (hidden x e w1 b1) w2 := by
  funext i
  rw [Cert.ReferenceIdeal.Read.val_main_v49_apply, relu_is_hidden]
  rfl

/-- THE REFERENCE IS THE NETWORK. -/
theorem reference_is_net (x : (⟨S100000x128, .f32⟩ : BufTy).Contents (Elt Ideal)) (e : (⟨S2x1600000, .i32⟩ : BufTy).Contents (Elt Ideal)) (w1 : (⟨S128x128, .f32⟩ : BufTy).Contents (Elt Ideal))
    (b1 : (⟨S128, .f32⟩ : BufTy).Contents (Elt Ideal)) (w2 : (⟨S128x64, .f32⟩ : BufTy).Contents (Elt Ideal)) (b2 : (⟨S64, .f32⟩ : BufTy).Contents (Elt Ideal)) :
    Cert.ReferenceIdeal.Read.val_main_v92 (F := Ideal) x e w1 b1 w2 b2 = net x e w1 b1 w2 b2 := by
  funext i
  rw [Cert.ReferenceIdeal.Read.val_main_v92_apply, Cert.ReferenceIdeal.Read.val_main_v89_apply, Cert.ReferenceIdeal.Layer.v84_eq, Cert.ReferenceIdeal.Layer.v88_eq, dot2_is_proj2, bias2_at]
  rfl

end Cert.KernelIdeal.Network

end
-- ==== Proof.ReadBack.lean ====
/-
  The kernel's result buffer read back through @main.

  The contents of every buffer at the seven segment boundaries are a fold from the launch memory. Walking it from
  the launch: the first stretch splits the edge list into its source and target rows; region 0 leaves the first
  projection x · W1; the second stretch turns it into the aggregate, the own rows and the bias row; region 1 combines
  them into the hidden features; region 2 leaves their projection on W2; the third stretch again gives aggregate,
  own rows and bias row; region 3 combines them into the result. A stretch leaves every buffer it does not write
  as it was, and a region every buffer that is not one of its arrays, which carries the source and target rows and
  the later arguments from the launch to where they are read.
-/
import proofs.«107032_j4621384810820_1_alg».proof.Proof.Region0
import proofs.«107032_j4621384810820_1_alg».proof.Proof.Region1
import proofs.«107032_j4621384810820_1_alg».proof.Proof.Region2
import proofs.«107032_j4621384810820_1_alg».proof.Proof.Region3
import proofs.«107032_j4621384810820_1_alg».proof.Proof.HostStretches
import proofs.«107032_j4621384810820_1_alg».proof.Proof.Network

set_option maxRecDepth 16384

noncomputable section

namespace Cert.KernelIdeal.ReadBack

open Cert.KernelIdeal Cert.KernelIdeal.Gen Cert.KernelIdeal.Spec Cert.KernelIdeal.Stretch Cert.KernelIdeal.RegionValue
open Cert.KernelIdeal.Network
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The six argument arrays as launched. -/
abbrev aX : (⟨S100000x128, .f32⟩ : BufTy).Contents (Elt Ideal) := m ((c : Thread nD τ).loc main_arg0)
abbrev aE : (⟨S2x1600000, .i32⟩ : BufTy).Contents (Elt Ideal) := m ((c : Thread nD τ).loc main_arg1)
abbrev aW1 : (⟨S128x128, .f32⟩ : BufTy).Contents (Elt Ideal) := m ((c : Thread nD τ).loc main_arg2)
abbrev aB1 : (⟨S128, .f32⟩ : BufTy).Contents (Elt Ideal) := m ((c : Thread nD τ).loc main_arg3)
abbrev aW2 : (⟨S128x64, .f32⟩ : BufTy).Contents (Elt Ideal) := m ((c : Thread nD τ).loc main_arg4)
abbrev aB2 : (⟨S64, .f32⟩ : BufTy).Contents (Elt Ideal) := m ((c : Thread nD τ).loc main_arg5)

/-! ## After the first stretch -/

theorem src1 : W1 m ρ c (Proc.devRef .tc main_v1) = Cert.ReferenceIdeal.Read.val_main_v1 (F := Ideal) (aE m c) := first_src (W0 m ρ c)
theorem dst1 : W1 m ρ c (Proc.devRef .tc main_v3) = Cert.ReferenceIdeal.Read.val_main_v3 (F := Ideal) (aE m c) := first_dst (W0 m ρ c)
theorem x1 : W1 m ρ c (Proc.devRef .tc main_arg0) = aX m c := first_keeps_arg0 (W0 m ρ c)
theorem w1_1 : W1 m ρ c (Proc.devRef .tc main_arg2) = aW1 m c := first_keeps_arg2 (W0 m ρ c)
theorem b1_1 : W1 m ρ c (Proc.devRef .tc main_arg3) = aB1 m c := first_keeps_arg3 (W0 m ρ c)
theorem w2_1 : W1 m ρ c (Proc.devRef .tc main_arg4) = aW2 m c := first_keeps_arg4 (W0 m ρ c)
theorem b2_1 : W1 m ρ c (Proc.devRef .tc main_arg5) = aB2 m c := first_keeps_arg5 (W0 m ρ c)

/-! ## After region 0 -/

theorem src2 : W2 m ρ c (Proc.devRef .tc main_v1) = Cert.ReferenceIdeal.Read.val_main_v1 (F := Ideal) (aE m c) :=
  (W2_of_ne m ρ c main_v1 (by decide)).trans (src1 m ρ c)
theorem dst2 : W2 m ρ c (Proc.devRef .tc main_v3) = Cert.ReferenceIdeal.Read.val_main_v3 (F := Ideal) (aE m c) :=
  (W2_of_ne m ρ c main_v3 (by decide)).trans (dst1 m ρ c)
theorem b1_2 : W2 m ρ c (Proc.devRef .tc main_arg3) = aB1 m c := (W2_of_ne m ρ c main_arg3 (by decide)).trans (b1_1 m ρ c)
theorem w2_2 : W2 m ρ c (Proc.devRef .tc main_arg4) = aW2 m c := (W2_of_ne m ρ c main_arg4 (by decide)).trans (w2_1 m ρ c)
theorem b2_2 : W2 m ρ c (Proc.devRef .tc main_arg5) = aB2 m c := (W2_of_ne m ρ c main_arg5 (by decide)).trans (b2_1 m ρ c)
/-- Region 0 leaves the first projection. -/
theorem h2 : W2 m ρ c (Proc.devRef .tc main_v4) = proj1 (aX m c) (aW1 m c) :=
  (W2_arr m ρ c 2).trans ((region0_array (V1 m ρ) c).trans (congrArg₂ proj1 (x1 m ρ c) (w1_1 m ρ c)))

/-! ## After the second stretch -/

theorem agg3 : W3 m ρ c (Proc.devRef .tc main_v39) = Cert.ReferenceIdeal.Layer.agg1 (proj1 (aX m c) (aW1 m c)) (aE m c) :=
  (second_agg (W2 m ρ c) (aE m c) (src2 m ρ c) (dst2 m ρ c)).trans (congrArg (fun h => Cert.ReferenceIdeal.Layer.agg1 h (aE m c)) (h2 m ρ c))
theorem own3 : W3 m ρ c (Proc.devRef .tc main_v43) = Cert.ReferenceIdeal.Layer.own1 (proj1 (aX m c) (aW1 m c)) (aE m c) :=
  (second_own (W2 m ρ c) (aE m c) (src2 m ρ c) (dst2 m ρ c)).trans (congrArg (fun h => Cert.ReferenceIdeal.Layer.own1 h (aE m c)) (h2 m ρ c))
theorem bias3 : W3 m ρ c (Proc.devRef .tc main_v44) = shapeCast S1x128 (aB1 m c) shapeCasts_S128_S1x128 :=
  (second_bias (W2 m ρ c)).trans (congrArg (fun b => shapeCast S1x128 b shapeCasts_S128_S1x128) (b1_2 m ρ c))
theorem src3 : W3 m ρ c (Proc.devRef .tc main_v1) = Cert.ReferenceIdeal.Read.val_main_v1 (F := Ideal) (aE m c) :=
  (second_keeps_v1 (W2 m ρ c)).trans (src2 m ρ c)
theorem dst3 : W3 m ρ c (Proc.devRef .tc main_v3) = Cert.ReferenceIdeal.Read.val_main_v3 (F := Ideal) (aE m c) :=
  (second_keeps_v3 (W2 m ρ c)).trans (dst2 m ρ c)
theorem w2_3 : W3 m ρ c (Proc.devRef .tc main_arg4) = aW2 m c := (second_keeps_arg4 (W2 m ρ c)).trans (w2_2 m ρ c)
theorem b2_3 : W3 m ρ c (Proc.devRef .tc main_arg5) = aB2 m c := (second_keeps_arg5 (W2 m ρ c)).trans (b2_2 m ρ c)

/-! ## After region 1 -/

theorem src4 : W4 m ρ c (Proc.devRef .tc main_v1) = Cert.ReferenceIdeal.Read.val_main_v1 (F := Ideal) (aE m c) :=
  (W4_of_ne m ρ c main_v1 (by decide)).trans (src3 m ρ c)
theorem dst4 : W4 m ρ c (Proc.devRef .tc main_v3) = Cert.ReferenceIdeal.Read.val_main_v3 (F := Ideal) (aE m c) :=
  (W4_of_ne m ρ c main_v3 (by decide)).trans (dst3 m ρ c)
theorem w2_4 : W4 m ρ c (Proc.devRef .tc main_arg4) = aW2 m c := (W4_of_ne m ρ c main_arg4 (by decide)).trans (w2_3 m ρ c)
theorem b2_4 : W4 m ρ c (Proc.devRef .tc main_arg5) = aB2 m c := (W4_of_ne m ρ c main_arg5 (by decide)).trans (b2_3 m ρ c)
/-- Region 1 leaves the hidden features. -/
theorem hidden4 : W4 m ρ c (Proc.devRef .tc main_v45) = hidden (aX m c) (aE m c) (aW1 m c) (aB1 m c) :=
  (W4_arr m ρ c 3).trans ((region1_array (V3 m ρ) c).trans (by
    show combine1 (W3 m ρ c (Proc.devRef .tc main_v39)) (W3 m ρ c (Proc.devRef .tc main_v43)) (W3 m ρ c (Proc.devRef .tc main_v44)) = _
    rw [agg3, own3, bias3]
    rfl))

/-! ## After region 2 -/

theorem src5 : W5 m ρ c (Proc.devRef .tc main_v1) = Cert.ReferenceIdeal.Read.val_main_v1 (F := Ideal) (aE m c) :=
  (W5_of_ne m ρ c main_v1 (by decide)).trans (src4 m ρ c)
theorem dst5 : W5 m ρ c (Proc.devRef .tc main_v3) = Cert.ReferenceIdeal.Read.val_main_v3 (F := Ideal) (aE m c) :=
  (W5_of_ne m ρ c main_v3 (by decide)).trans (dst4 m ρ c)
theorem b2_5 : W5 m ρ c (Proc.devRef .tc main_arg5) = aB2 m c := (W5_of_ne m ρ c main_arg5 (by decide)).trans (b2_4 m ρ c)
/-- Region 2 leaves the second projection, of the hidden features. -/
theorem h5 : W5 m ρ c (Proc.devRef .tc main_v46) = proj2 (hidden (aX m c) (aE m c) (aW1 m c) (aB1 m c)) (aW2 m c) :=
  (W5_arr m ρ c 2).trans ((region2_array (V4 m ρ) c).trans (congrArg₂ proj2 (hidden4 m ρ c) (w2_4 m ρ c)))

/-! ## After the third stretch, and region 3 -/

theorem agg6 : W6 m ρ c (Proc.devRef .tc main_v81)
    = Cert.ReferenceIdeal.Layer.agg2 (proj2 (hidden (aX m c) (aE m c) (aW1 m c) (aB1 m c)) (aW2 m c)) (aE m c) :=
  (third_agg (W5 m ρ c) (aE m c) (src5 m ρ c) (dst5 m ρ c)).trans (congrArg (fun h => Cert.ReferenceIdeal.Layer.agg2 h (aE m c)) (h5 m ρ c))
theorem own6 : W6 m ρ c (Proc.devRef .tc main_v85)
    = Cert.ReferenceIdeal.Layer.own2 (proj2 (hidden (aX m c) (aE m c) (aW1 m c) (aB1 m c)) (aW2 m c)) (aE m c) :=
  (third_own (W5 m ρ c) (aE m c) (src5 m ρ c) (dst5 m ρ c)).trans (congrArg (fun h => Cert.ReferenceIdeal.Layer.own2 h (aE m c)) (h5 m ρ c))
theorem bias6 : W6 m ρ c (Proc.devRef .tc main_v86) = shapeCast S1x64 (aB2 m c) shapeCasts_S64_S1x64 :=
  (third_bias (W5 m ρ c)).trans (congrArg (fun b => shapeCast S1x64 b shapeCasts_S64_S1x64) (b2_5 m ρ c))

/-- THE RESULT BUFFER at the last boundary is the network of the six arguments as launched. -/
theorem result_is_net : W7 m ρ c (Proc.devRef .tc main_v87) = net (aX m c) (aE m c) (aW1 m c) (aB1 m c) (aW2 m c) (aB2 m c) :=
  (W7_arr m ρ c 3).trans ((region3_array (V6 m ρ) c).trans (by
    show combine2 (W6 m ρ c (Proc.devRef .tc main_v81)) (W6 m ρ c (Proc.devRef .tc main_v85)) (W6 m ρ c (Proc.devRef .tc main_v86)) = _
    rw [agg6, own6, bias6]
    rfl))

end Cert.KernelIdeal.ReadBack

end
-- ==== Proof.lean ====
/-
  A two-layer graph convolution over 100000 nodes and 1600000 edges, its dense steps in four blockwise kernels,
  against the plain jnp network: equal results on the extended reals, element by element.

  Each layer projects the node features (h = x · W), aggregates the projected rows over the edges with the symmetric
  degree normalisation, adds each node's own row scaled by its inverse degree and the bias, and — after the first
  layer — keeps the positive part. The kernel computes the two projections block of 5000 rows by block (a matrix
  product into a zero accumulator, its operands first narrowed to bf16, which at the exact instance is the identity)
  and the two final combinations block of 4000 rows by block; the gathers, the scatter-adds and the degree scales
  are the SAME host operations in both programs, applied to what the projections produce. So the two programs are one
  function of the six arguments, `Network.net`:

  * the kernel: every region's output array is one whole-array function of the arrays it reads (its blocks are
    restrictions of that function and tile the array), and the buffers between the regions are read back through
    @main's stretches of host operations, from the result to the launch;
  * the reference: its run's composed term, one operation at a time — a dot_general is the projection's sum, a bias
    broadcast reads the bias at the entry's column, relu is the maximum with zero.

  The only law used is that a contraction is the sum over the contracted axis; the inputs' finiteness is not needed.
  The three frames are the generated ones (the reference's: its run with the result dropped); the idealization
  rewrote nothing, so `preserves` has no conjunct.
-/
import proofs.«107032_j4621384810820_1_alg».proof.Defs
import proofs.«107032_j4621384810820_1_alg».proof.Proof.Gen.Kernel
import proofs.«107032_j4621384810820_1_alg».proof.Proof.Gen.Kernel.Frame
import proofs.«107032_j4621384810820_1_alg».proof.Proof.Gen.KernelIdeal
import proofs.«107032_j4621384810820_1_alg».proof.Proof.Gen.KernelIdeal.Frame
import proofs.«107032_j4621384810820_1_alg».proof.Proof.Gen.ReferenceIdeal
import proofs.«107032_j4621384810820_1_alg».proof.Proof.Gen.ReferenceIdeal.Run
import proofs.«107032_j4621384810820_1_alg».proof.Proof.Gen.ReferenceIdeal.Read
import proofs.«107032_j4621384810820_1_alg».proof.Proof.Gen.Pre_finite_inputs
import proofs.«107032_j4621384810820_1_alg».proof.Proof.KernelRun
import proofs.«107032_j4621384810820_1_alg».proof.Proof.ReadBack
import proofs.«107032_j4621384810820_1_alg».proof.Proof.Network
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- Both programs end with the network of the arguments: the kernel by its run and the read-back of its result buffer,
    the reference by its run's term read as the network, the arguments agreeing. -/
theorem algebraic : Cert.algebraic_KernelIdeal_ReferenceIdeal := by
  intro m ρ m' ρ' _ hagree
  refine ⟨fun c => Cert.KernelIdeal.Network.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.ReadBack.result_is_net m ρ c), (h c).2⟩) (Cert.KernelIdeal.RunValue.run_result m ρ)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v92_eq, Cert.KernelIdeal.Network.reference_is_net, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
